-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16x4096 : Shape := ⟨2, ![16, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S8192x4096 .f32) (main_arg1 : FVec F S16x4096 .f32) (main_arg2 : FVec F S4096x16 .f32) (main_arg3 : FVec F S16x4096 .f32) (main_arg4 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8192x4096 : Shape := ⟨2, ![8192, 4096]⟩
abbrev S16x4096 : Shape := ⟨2, ![16, 4096]⟩
abbrev S4096x16 : Shape := ⟨2, ![4096, 16]⟩
abbrev S128x4096 : Shape := ⟨2, ![128, 4096]⟩
abbrev S128x16 : Shape := ⟨2, ![128, 16]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096x16, .f32⟩
  | .hbm, ⟨3, _⟩ => ⟨S16x4096, .f32⟩
  | .hbm, ⟨4, _⟩ => ⟨S4096x16, .f32⟩
  | .hbm, ⟨5, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x16, .f32⟩
  | .local _ .vmem, ⟨3, _⟩ => ⟨S16x4096, .f32⟩
  | .local _ .vmem, ⟨4, _⟩ => ⟨S4096x16, .f32⟩
  | .local _ .vmem, ⟨5, _⟩ => ⟨S16x4096, .f32⟩
  | .local _ .vmem, ⟨6, _⟩ => ⟨S128x4096, .f32⟩
  | .local _ .vmem, ⟨7, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S128x4096_S128x4096_0_0 : ∀ a, (![0, 0] : Fin 2 → Nat) a + S128x4096.size a ≤ S128x4096.size a
  h_S128x4096 : 0 < S128x4096.numel
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  inb_S16x4096_S16x4096_0_0 : ∀ a, (![0, 0] : Fin 2 → Nat) a + S16x4096.size a ≤ S16x4096.size a
  h_S16x4096 : 0 < S16x4096.numel
  dot_S128x4096_S4096x16_S128x16_1_0_0_1_n_n_wf : DotDims.WF S128x4096 S4096x16 S128x16 [1] [0] [0] [1] [] []
  dot_S128x16_S16x4096_S128x4096_1_0_0_1_n_n_wf : DotDims.WF S128x16 S16x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S4096x16.size a
  hwx0_3 : ∀ i : grid0.Coords, EltTy.bits .f32 = 32 ∨ (Rect.block (s := S4096x16) S4096x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x4096.size a ≤ S16x4096.size a
  hwx0_4 : ∀ i : grid0.Coords, EltTy.bits .f32 = 32 ∨ (Rect.block (s := S16x4096) S16x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

def dot_S128x4096_S4096x16_S128x16_1_0_0_1_n_n : DotDims S128x4096 S4096x16 S128x16 where
  lhsContracting := [1]
  rhsContracting := [0]
  lhsNonContracting := [0]
  rhsNonContracting := [1]
  lhsBatch := []
  rhsBatch := []
  wf := dot_S128x4096_S4096x16_S128x16_1_0_0_1_n_n_wf
def dot_S128x16_S16x4096_S128x4096_1_0_0_1_n_n : DotDims S128x16 S16x4096 S128x4096 where
  lhsContracting := [1]
  rhsContracting := [0]
  lhsNonContracting := [0]
  rhsNonContracting := [1]
  lhsBatch := []
  rhsBatch := []
  wf := dot_S128x16_S16x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4096x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16x4096 : Shape := ⟨2, ![16, 4096]⟩
abbrev S4096x16 : Shape := ⟨2, ![4096, 16]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096x16, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x16_S16x4096_S4096x4096_1_0_0_1_n_n_wf : DotDims.WF S4096x16 S16x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LowRankLaw.lean ====
/-
  The algebraic law that joins the two programs, over the reals and then over the extended reals.

  Fix an output row and an output column.  Write `x k` for the row of the activations (k over the model
  width), `B k r`, `B0 k r` for the two down-projections (r over the low rank) and `A r`, `A0 r` for the
  column of the two up-projections.  The kernel first contracts the wide axis, then the narrow one:

      (∑ r, (∑ k, x k · B k r) · A r  −  ∑ r, (∑ k, x k · B0 k r) · A0 r) · c,

  while the reference first forms the difference of the two rank-`r` products and then contracts the
  wide axis:

      ∑ k, x k · ((∑ r, B k r · A r − ∑ r, B0 k r · A0 r) · c).

  Over a commutative ring these agree: exchange the two finite sums and distribute.  On the extended
  reals distributivity fails at the infinities, so the law is stated for entries that are real numbers;
  the coercion from the reals commutes with products, differences and finite sums, which carries the
  real identity over.
-/
import Mathlib.Data.EReal.Operations
import Mathlib.Algebra.BigOperators.Ring.Finset
import Mathlib.Algebra.BigOperators.Group.Finset.Sigma
import Mathlib.Tactic.Ring

namespace Cert.LowRank

open Finset

/-- The coercion of the reals into the extended reals commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Contracting the wide axis first and the narrow axis second is contracting the narrow axis first and
    the wide axis second: the double sum is exchanged. -/
theorem sum_sum_mul {κ ρ : Type*} [Fintype κ] [Fintype ρ] (x : κ → ℝ) (B : κ → ρ → ℝ) (A : ρ → ℝ) :
    ∑ r, (∑ k, x k * B k r) * A r = ∑ k, x k * ∑ r, B k r * A r := by
  simp_rw [Finset.sum_mul, Finset.mul_sum]
  rw [Finset.sum_comm]
  exact Finset.sum_congr rfl fun k _ => Finset.sum_congr rfl fun r _ => by ring

/-- The law over the reals. -/
theorem real_law {κ ρ : Type*} [Fintype κ] [Fintype ρ] (x : κ → ℝ) (B B0 : κ → ρ → ℝ) (A A0 : ρ → ℝ) (c : ℝ) :
    (∑ r, (∑ k, x k * B k r) * A r - ∑ r, (∑ k, x k * B0 k r) * A0 r) * c
      = ∑ k, x k * ((∑ r, B k r * A r - ∑ r, B0 k r * A0 r) * c) := by
  rw [sum_sum_mul, sum_sum_mul, ← Finset.sum_sub_distrib, Finset.sum_mul]
  exact Finset.sum_congr rfl fun k _ => by ring

/-- The law over the extended reals, for entries that are coercions of reals. -/
theorem ereal_law {κ ρ : Type*} [Fintype κ] [Fintype ρ] (x : κ → ℝ) (B B0 : κ → ρ → ℝ) (A A0 : ρ → ℝ) (c : ℝ) :
    (∑ r, (∑ k, (x k : EReal) * (B k r : EReal)) * (A r : EReal)
        - ∑ r, (∑ k, (x k : EReal) * (B0 k r : EReal)) * (A0 r : EReal)) * (c : EReal)
      = ∑ k, (x k : EReal) * ((∑ r, (B k r : EReal) * (A r : EReal) - ∑ r, (B0 k r : EReal) * (A0 r : EReal)) * (c : EReal)) := by
  simp only [← EReal.coe_mul, ← coe_sum, ← EReal.coe_sub]
  exact congrArg _ (real_law x B B0 A A0 c)

/-- The law for extended-real entries each of which is known to be a real number. -/
theorem law_of_real {κ ρ : Type*} [Fintype κ] [Fintype ρ] (X : κ → EReal) (Bm B0m : κ → ρ → EReal) (Am A0m : ρ → EReal)
    (c : EReal) (hX : ∀ k, ∃ v : ℝ, X k = v) (hB : ∀ k r, ∃ v : ℝ, Bm k r = v) (hB0 : ∀ k r, ∃ v : ℝ, B0m k r = v)
    (hA : ∀ r, ∃ v : ℝ, Am r = v) (hA0 : ∀ r, ∃ v : ℝ, A0m r = v) (hc : ∃ v : ℝ, c = v) :
    (∑ r, (∑ k, X k * Bm k r) * Am r - ∑ r, (∑ k, X k * B0m k r) * A0m r) * c
      = ∑ k, X k * ((∑ r, Bm k r * Am r - ∑ r, B0m k r * A0m r) * c) := by
  choose x hx using hX
  choose b hb using hB
  choose b0 hb0 using hB0
  choose a ha using hA
  choose a0 ha0 using hA0
  obtain ⟨c', rfl⟩ := hc
  simp only [hx, hb, hb0, ha, ha0]
  exact ereal_law x b b0 a a0 c'

end Cert.LowRank
-- ==== Proof.Spec.lean ====
/-
  The specification: what one entry of the result is, as a function of the five argument arrays, in the
  two arrangements the two programs compute it in, and that the arrangements agree on real entries.

  Shapes: the activations `x` are [8192, 4096]; the up-projections `A`, `A0` are [16, 4096]; the
  down-projections `B`, `B0` are [4096, 16].  An entry (p, q) of the result depends on row `p` of `x`
  only, so both arrangements are written over that row `xr k = x (p, k)`.
-/
import Idealize.ShloMosaic.PureOps.Ideal
import Idealize.ShloMosaic.PureOps.IdealRules
import Idealize.ShloMosaic.Lib.ValueIdx
import proofs.«166343_j31602369364691_2_alg».proof.Proof.LowRankLaw

noncomputable section

namespace Cert.LowRank

open Idealize.ShloMosaic Idealize.ShloMosaic.ValueIdx

/-- The scale both programs multiply by: the word of the float `1.0`. -/
abbrev scale : EReal := Ideal.ofBits .f32 0x3F800000#32

/-- That word denotes the real number one. -/
theorem scale_eq_one : scale = ((1 : ℝ) : EReal) :=
  (IdealRules.sign_bit.ideal_onePat .f32).trans EReal.coe_one.symm

/-- The kernel's arrangement of entry `q` of a result row: contract the row with each down-projection over the
    wide axis, contract the two short vectors with the up-projections' column `q` over the narrow axis,
    subtract, scale. -/
def kerRow (xr : Fin 4096 → EReal) (A : (⟨2, ![16, 4096]⟩ : Shape).Idx → EReal) (B : (⟨2, ![4096, 16]⟩ : Shape).Idx → EReal)
    (A0 : (⟨2, ![16, 4096]⟩ : Shape).Idx → EReal) (B0 : (⟨2, ![4096, 16]⟩ : Shape).Idx → EReal) (q : Fin 4096) : EReal :=
  (∑ r : Fin 16, (∑ k : Fin 4096, xr k * B (ix2 k r)) * A (ix2 r q)
    - ∑ r : Fin 16, (∑ k : Fin 4096, xr k * B0 (ix2 k r)) * A0 (ix2 r q)) * scale

/-- The reference's arrangement: form column `q` of the scaled difference of the two low-rank products, then
    contract the row with it over the wide axis. -/
def refRow (xr : Fin 4096 → EReal) (A : (⟨2, ![16, 4096]⟩ : Shape).Idx → EReal) (B : (⟨2, ![4096, 16]⟩ : Shape).Idx → EReal)
    (A0 : (⟨2, ![16, 4096]⟩ : Shape).Idx → EReal) (B0 : (⟨2, ![4096, 16]⟩ : Shape).Idx → EReal) (q : Fin 4096) : EReal :=
  ∑ k : Fin 4096, xr k * ((∑ r : Fin 16, B (ix2 k r) * A (ix2 r q) - ∑ r : Fin 16, B0 (ix2 k r) * A0 (ix2 r q)) * scale)

/-- On entries that are real numbers the two arrangements are one number (the law of `LowRankLaw`). -/
theorem kerRow_eq_refRow (xr : Fin 4096 → EReal) (A : (⟨2, ![16, 4096]⟩ : Shape).Idx → EReal)
    (B : (⟨2, ![4096, 16]⟩ : Shape).Idx → EReal) (A0 : (⟨2, ![16, 4096]⟩ : Shape).Idx → EReal)
    (B0 : (⟨2, ![4096, 16]⟩ : Shape).Idx → EReal) (q : Fin 4096)
    (hx : ∀ k, ∃ v : ℝ, xr k = v) (hA : ∀ i, ∃ v : ℝ, A i = v) (hB : ∀ i, ∃ v : ℝ, B i = v)
    (hA0 : ∀ i, ∃ v : ℝ, A0 i = v) (hB0 : ∀ i, ∃ v : ℝ, B0 i = v) :
    kerRow xr A B A0 B0 q = refRow xr A B A0 B0 q :=
  law_of_real xr (fun k r => B (ix2 k r)) (fun k r => B0 (ix2 k r)) (fun r => A (ix2 r q)) (fun r => A0 (ix2 r q)) scale
    hx (fun k r => hB _) (fun k r => hB0 _) (fun r => hA _) (fun r => hA0 _) ⟨1, scale_eq_one⟩

/-- The kernel arrangement depends on its arguments only through their entries. -/
theorem kerRow_congr {xr xr' : Fin 4096 → EReal} {A A' : (⟨2, ![16, 4096]⟩ : Shape).Idx → EReal}
    {B B' : (⟨2, ![4096, 16]⟩ : Shape).Idx → EReal} {A0 A0' : (⟨2, ![16, 4096]⟩ : Shape).Idx → EReal}
    {B0 B0' : (⟨2, ![4096, 16]⟩ : Shape).Idx → EReal} {q q' : Fin 4096}
    (hx : ∀ k, xr k = xr' k) (hA : ∀ i, A i = A' i) (hB : ∀ i, B i = B' i) (hA0 : ∀ i, A0 i = A0' i)
    (hB0 : ∀ i, B0 i = B0' i) (hq : q = q') :
    kerRow xr A B A0 B0 q = kerRow xr' A' B' A0' B0' q' := by
  obtain rfl : xr = xr' := funext hx
  obtain rfl : A = A' := funext hA
  obtain rfl : B = B' := funext hB
  obtain rfl : A0 = A0' := funext hA0
  obtain rfl : B0 = B0' := funext hB0
  subst hq
  rfl

/-- The whole result array in the kernel's arrangement. -/
def kerSpec (x : (⟨2, ![8192, 4096]⟩ : Shape).Idx → EReal) (A : (⟨2, ![16, 4096]⟩ : Shape).Idx → EReal)
    (B : (⟨2, ![4096, 16]⟩ : Shape).Idx → EReal) (A0 : (⟨2, ![16, 4096]⟩ : Shape).Idx → EReal)
    (B0 : (⟨2, ![4096, 16]⟩ : Shape).Idx → EReal) : (⟨2, ![8192, 4096]⟩ : Shape).Idx → EReal :=
  fun i => kerRow (fun k => x (ix2 (i 0) k)) A B A0 B0 (i 1)

/-- The whole result array in the reference's arrangement. -/
def refSpec (x : (⟨2, ![8192, 4096]⟩ : Shape).Idx → EReal) (A : (⟨2, ![16, 4096]⟩ : Shape).Idx → EReal)
    (B : (⟨2, ![4096, 16]⟩ : Shape).Idx → EReal) (A0 : (⟨2, ![16, 4096]⟩ : Shape).Idx → EReal)
    (B0 : (⟨2, ![4096, 16]⟩ : Shape).Idx → EReal) : (⟨2, ![8192, 4096]⟩ : Shape).Idx → EReal :=
  fun i => refRow (fun k => x (ix2 (i 0) k)) A B A0 B0 (i 1)

/-- On arrays of real numbers the two whole-array arrangements are one array. -/
theorem kerSpec_eq_refSpec (x : (⟨2, ![8192, 4096]⟩ : Shape).Idx → EReal) (A : (⟨2, ![16, 4096]⟩ : Shape).Idx → EReal)
    (B : (⟨2, ![4096, 16]⟩ : Shape).Idx → EReal) (A0 : (⟨2, ![16, 4096]⟩ : Shape).Idx → EReal)
    (B0 : (⟨2, ![4096, 16]⟩ : Shape).Idx → EReal)
    (hx : ∀ i, ∃ v : ℝ, x i = v) (hA : ∀ i, ∃ v : ℝ, A i = v) (hB : ∀ i, ∃ v : ℝ, B i = v)
    (hA0 : ∀ i, ∃ v : ℝ, A0 i = v) (hB0 : ∀ i, ∃ v : ℝ, B0 i = v) :
    kerSpec x A B A0 B0 = refSpec x A B A0 B0 :=
  funext fun i => kerRow_eq_refRow _ A B A0 B0 (i 1) (fun k => hx _) hA hB hA0 hB0

end Cert.LowRank

end
-- ==== Proof.Payload.lean ====
/-
  The kernel body's stored value, read at one entry of the block, is the kernel arrangement of the
  specification over the body's five loaded blocks.

  The body rounds its loads to bf16 (the identity on the extended reals), multiplies the [128, 4096] block of
  activations by each [4096, 16] down-projection into a zero accumulator, rounds, multiplies each [128, 16]
  product by the matching [16, 4096] up-projection into a zero accumulator, subtracts and scales.  A product
  into a zero accumulator is, entry by entry, the sum over the one contracted axis of the operands' products:
  the wide axis (4096 terms) for the first pair of products, the narrow one (16 terms) for the second pair.
-/
import proofs.«166343_j31602369364691_2_alg».proof.Proof.Gen.KernelIdeal.Skeleton
import proofs.«166343_j31602369364691_2_alg».proof.Proof.Spec
import Idealize.ShloMosaic.PureOps.Ideal.Laws
import Idealize.ShloMosaic.Lib.ValueIdx

noncomputable section

namespace Cert.LowRank.Ker

open Idealize.ShloMosaic Idealize.ShloMosaic.ValueIdx Cert.KernelIdeal Cert.KernelIdeal.Gen

/-! ## The product over the wide axis: [128, 4096] × [4096, 16] -/

theorem wide_lhs0 (i : S128x16.Idx) (c : dot_S128x4096_S4096x16_S128x16_1_0_0_1_n_n.contr.Idx) :
    (dot_S128x4096_S4096x16_S128x16_1_0_0_1_n_n.lhsIdx i c 0).val = (i 0).val := by
  unfold DotDims.lhsIdx
  rw [dif_neg (show ¬(0 : Fin S128x4096.rank) ∈ dot_S128x4096_S4096x16_S128x16_1_0_0_1_n_n.lhsBatch by decide), dif_pos (show (0 : Fin S128x4096.rank) ∈ dot_S128x4096_S4096x16_S128x16_1_0_0_1_n_n.lhsNonContracting by decide)]
  rfl
theorem wide_lhs1 (i : S128x16.Idx) (c : dot_S128x4096_S4096x16_S128x16_1_0_0_1_n_n.contr.Idx) :
    (dot_S128x4096_S4096x16_S128x16_1_0_0_1_n_n.lhsIdx i c 1).val = (c ⟨0, by decide⟩).val :=
  dot_S128x4096_S4096x16_S128x16_1_0_0_1_n_n.lhsIdx_val_of_single rfl i c
theorem wide_rhs0 (i : S128x16.Idx) (c : dot_S128x4096_S4096x16_S128x16_1_0_0_1_n_n.contr.Idx) :
    (dot_S128x4096_S4096x16_S128x16_1_0_0_1_n_n.rhsIdx i c 0).val = (c ⟨0, by decide⟩).val :=
  dot_S128x4096_S4096x16_S128x16_1_0_0_1_n_n.rhsIdx_val_of_single rfl i c
theorem wide_rhs1 (i : S128x16.Idx) (c : dot_S128x4096_S4096x16_S128x16_1_0_0_1_n_n.contr.Idx) :
    (dot_S128x4096_S4096x16_S128x16_1_0_0_1_n_n.rhsIdx i c 1).val = (i 1).val := by
  unfold DotDims.rhsIdx
  rw [dif_neg (show ¬(1 : Fin S4096x16.rank) ∈ dot_S128x4096_S4096x16_S128x16_1_0_0_1_n_n.rhsBatch by decide), dif_pos (show (1 : Fin S4096x16.rank) ∈ dot_S128x4096_S4096x16_S128x16_1_0_0_1_n_n.rhsNonContracting by decide)]
  rfl

/-- Entry (p, r) of the product into zero is the sum over the wide axis of row `p` times column `r`. -/
theorem wide_apply (l : FVec Ideal S128x4096 .bf16) (rr : FVec Ideal S4096x16 .bf16) (p : Fin 128) (r : Fin 16) :
    matmul dot_S128x4096_S4096x16_S128x16_1_0_0_1_n_n none l rr (constant (F := Ideal) S128x16 .f32 0x00000000#32) (ix2 p r)
      = ∑ k : Fin 4096, l (ix2 p k) * rr (ix2 k r) := by
  simp only [matmul]
  rw [Ideal.matmul_constant_zero_apply, ← Equiv.sum_comp (contrEquiv1 dot_S128x4096_S4096x16_S128x16_1_0_0_1_n_n 4096 rfl rfl).symm]
  refine Finset.sum_congr rfl fun k _ => ?_
  have hk := contrEquiv1_symm_val dot_S128x4096_S4096x16_S128x16_1_0_0_1_n_n 4096 rfl rfl k
  have el : dot_S128x4096_S4096x16_S128x16_1_0_0_1_n_n.lhsIdx (ix2 p r) ((contrEquiv1 dot_S128x4096_S4096x16_S128x16_1_0_0_1_n_n 4096 rfl rfl).symm k) = ix2 p k := funext fun a => Fin.ext (by
    match a with
    | ⟨0, _⟩ => exact wide_lhs0 _ _
    | ⟨1, _⟩ => exact (wide_lhs1 _ _).trans hk)
  have er : dot_S128x4096_S4096x16_S128x16_1_0_0_1_n_n.rhsIdx (ix2 p r) ((contrEquiv1 dot_S128x4096_S4096x16_S128x16_1_0_0_1_n_n 4096 rfl rfl).symm k) = ix2 k r := funext fun a => Fin.ext (by
    match a with
    | ⟨0, _⟩ => exact (wide_rhs0 _ _).trans hk
    | ⟨1, _⟩ => exact wide_rhs1 _ _)
  rw [el, er]

/-! ## The product over the narrow axis: [128, 16] × [16, 4096] -/

theorem narrow_lhs0 (i : S128x4096.Idx) (c : dot_S128x16_S16x4096_S128x4096_1_0_0_1_n_n.contr.Idx) :
    (dot_S128x16_S16x4096_S128x4096_1_0_0_1_n_n.lhsIdx i c 0).val = (i 0).val := by
  unfold DotDims.lhsIdx
  rw [dif_neg (show ¬(0 : Fin S128x16.rank) ∈ dot_S128x16_S16x4096_S128x4096_1_0_0_1_n_n.lhsBatch by decide), dif_pos (show (0 : Fin S128x16.rank) ∈ dot_S128x16_S16x4096_S128x4096_1_0_0_1_n_n.lhsNonContracting by decide)]
  rfl
theorem narrow_lhs1 (i : S128x4096.Idx) (c : dot_S128x16_S16x4096_S128x4096_1_0_0_1_n_n.contr.Idx) :
    (dot_S128x16_S16x4096_S128x4096_1_0_0_1_n_n.lhsIdx i c 1).val = (c ⟨0, by decide⟩).val :=
  dot_S128x16_S16x4096_S128x4096_1_0_0_1_n_n.lhsIdx_val_of_single rfl i c
theorem narrow_rhs0 (i : S128x4096.Idx) (c : dot_S128x16_S16x4096_S128x4096_1_0_0_1_n_n.contr.Idx) :
    (dot_S128x16_S16x4096_S128x4096_1_0_0_1_n_n.rhsIdx i c 0).val = (c ⟨0, by decide⟩).val :=
  dot_S128x16_S16x4096_S128x4096_1_0_0_1_n_n.rhsIdx_val_of_single rfl i c
theorem narrow_rhs1 (i : S128x4096.Idx) (c : dot_S128x16_S16x4096_S128x4096_1_0_0_1_n_n.contr.Idx) :
    (dot_S128x16_S16x4096_S128x4096_1_0_0_1_n_n.rhsIdx i c 1).val = (i 1).val := by
  unfold DotDims.rhsIdx
  rw [dif_neg (show ¬(1 : Fin S16x4096.rank) ∈ dot_S128x16_S16x4096_S128x4096_1_0_0_1_n_n.rhsBatch by decide), dif_pos (show (1 : Fin S16x4096.rank) ∈ dot_S128x16_S16x4096_S128x4096_1_0_0_1_n_n.rhsNonContracting by decide)]
  rfl

/-- Entry (p, q) of the product into zero is the sum over the narrow axis of row `p` times column `q`. -/
theorem narrow_apply (l : FVec Ideal S128x16 .bf16) (rr : FVec Ideal S16x4096 .bf16) (p : Fin 128) (q : Fin 4096) :
    matmul dot_S128x16_S16x4096_S128x4096_1_0_0_1_n_n none l rr (constant (F := Ideal) S128x4096 .f32 0x00000000#32) (ix2 p q)
      = ∑ r : Fin 16, l (ix2 p r) * rr (ix2 r q) := by
  simp only [matmul]
  rw [Ideal.matmul_constant_zero_apply, ← Equiv.sum_comp (contrEquiv1 dot_S128x16_S16x4096_S128x4096_1_0_0_1_n_n 16 rfl rfl).symm]
  refine Finset.sum_congr rfl fun r _ => ?_
  have hr := contrEquiv1_symm_val dot_S128x16_S16x4096_S128x4096_1_0_0_1_n_n 16 rfl rfl r
  have el : dot_S128x16_S16x4096_S128x4096_1_0_0_1_n_n.lhsIdx (ix2 p q) ((contrEquiv1 dot_S128x16_S16x4096_S128x4096_1_0_0_1_n_n 16 rfl rfl).symm r) = ix2 p r := funext fun a => Fin.ext (by
    match a with
    | ⟨0, _⟩ => exact narrow_lhs0 _ _
    | ⟨1, _⟩ => exact (narrow_lhs1 _ _).trans hr)
  have er : dot_S128x16_S16x4096_S128x4096_1_0_0_1_n_n.rhsIdx (ix2 p q) ((contrEquiv1 dot_S128x16_S16x4096_S128x4096_1_0_0_1_n_n 16 rfl rfl).symm r) = ix2 r q := funext fun a => Fin.ext (by
    match a with
    | ⟨0, _⟩ => exact (narrow_rhs0 _ _).trans hr
    | ⟨1, _⟩ => exact narrow_rhs1 _ _)
  rw [el, er]

/-! ## The stored value at an entry -/

/-- Entry (p, q) of the body's stored value: the kernel arrangement over row `p` of the activations' block
    `x0`, with `x1`, `x3` the two down-projections and `x2`, `x4` the two up-projections as loaded. -/
theorem payload_apply (x0 : Vec Ideal S128x4096 .f32) (x1 : Vec Ideal S4096x16 .f32) (x2 : Vec Ideal S16x4096 .f32)
    (x3 : Vec Ideal S4096x16 .f32) (x4 : Vec Ideal S16x4096 .f32) (p : Fin 128) (q : Fin 4096) :
    k0_pay1 (F := Ideal) x0 x1 x2 x3 x4 (ix2 p q) = kerRow (fun k => x0 (ix2 p k)) x2 x1 x4 x3 q := by
  simp only [k0_pay1, kerRow, mulf_apply, subf_apply, broadcast_apply, narrow_apply, truncf_apply, wide_apply]
  rfl

end Cert.LowRank.Ker

end
-- ==== Proof.Blocks.lean ====
/-
  From blocks to the array: after the kernel's run the result array is the kernel arrangement of the
  specification over the whole argument arrays.

  The grid has 64 points.  At point `t` the activations' window and the result's window are both at block
  (t, 0) of 128 rows by 4096 columns, and the four projection windows are at block (0, 0), which is the whole
  array.  So row `p` of the block at point `t` is row `t · 128 + p` of the array, the body's stored value at
  (p, q) is the specification's entry (t · 128 + p, q), and row `r` of the array is covered by point
  `r / 128`: the 64 blocks tile the array.
-/
import proofs.«166343_j31602369364691_2_alg».proof.Proof.Gen.KernelIdeal.Value
import proofs.«166343_j31602369364691_2_alg».proof.Proof.Payload

noncomputable section

namespace Cert.LowRank.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_eq : (![0, 0] : Fin 2 → Nat) = fun _ => 0 := funext fun a => by fin_cases a <;> rfl

/-- The printed index maps, decided over the 64 grid points: the activations' and the result's windows are at
    block (t, 0), the four projections' at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the specification's array over the arguments as the region
    finds them. -/
theorem flushed_eq (c : Dev nD) (t : Fin cfg0.N) :
    (dats m 0 c).flushed 5 t = ((cfg0.win 5).blk t).view.read (Elt Ideal)
      (kerSpec (V m c main_arg0) (V m c main_arg1) (V m c main_arg2) (V m c main_arg3) (V m c main_arg4)) := by
  rw [Cert.KernelIdeal.Value.flushed5]
  unfold out0_5
  rw [View.canon_unit_zero origin_eq]
  simp only [View.ld_unit_zero (S := S128x4096) origin_eq, View.ld_unit_zero (S := S4096x16) origin_eq,
    View.ld_unit_zero (S := S16x4096) origin_eq]
  obtain ⟨e00, e01, e10, e11, e20, e21, e30, e31, e40, e41, e50, e51⟩ := idx_facts t
  funext j
  obtain ⟨p, q, rfl⟩ : ∃ (p : Fin 128) (q : Fin 4096), j = ix2 p q := ⟨j 0, j 1, eq_ix2 (n0 := 128) (n1 := 4096) j⟩
  show k0_pay1 (iblk m c 0 t) (iblk m c 1 t) (iblk m c 2 t) (iblk m c 3 t) (iblk m c 4 t) (ix2 p q)
    = kerSpec (V m c main_arg0) (V m c main_arg1) (V m c main_arg2) (V m c main_arg3) (V m c main_arg4)
        (((cfg0.win 5).blk t).view.emb (ix2 p q))
  refine (payload_apply (iblk m c 0 t) (iblk m c 1 t) (iblk m c 2 t) (iblk m c 3 t) (iblk m c 4 t) p q).trans ?_
  -- row `p` of the activations' block is the row of the array the result's block puts row `p` at
  have hx : ∀ k : Fin 4096, iblk m c 0 t (ix2 p k)
      = V m c main_arg0 (ix2 ((((cfg0.win 5).blk t).view.emb (ix2 p q)) 0) k) := by
    intro k
    show V m c main_arg0 (((cfg0.win 0).blk t).view.emb (ix2 p k)) = _
    refine congrArg (V m c main_arg0) (funext fun a => Fin.ext ?_)
    match a with
    | ⟨0, _⟩ =>
      show win0_0.index t (0 : Fin 2) * 128 + 1 * p.val = win0_5.index t (0 : Fin 2) * 128 + 1 * p.val
      omega
    | ⟨1, _⟩ =>
      show win0_0.index t (1 : Fin 2) * 4096 + 1 * k.val = k.val
      omega
  -- each projection's block is the whole array
  have h1 : ∀ y : S4096x16.Idx, iblk m c 1 t y = V m c main_arg2 y := by
    intro y
    show V m c main_arg2 (((cfg0.win 1).blk t).view.emb y) = _
    refine congrArg (V m c main_arg2) (funext fun a => Fin.ext ?_)
    match a with
    | ⟨0, _⟩ => show win0_1.index t (0 : Fin 2) * 4096 + 1 * (y 0).val = (y 0).val; omega
    | ⟨1, _⟩ => show win0_1.index t (1 : Fin 2) * 16 + 1 * (y 1).val = (y 1).val; omega
  have h2 : ∀ y : S16x4096.Idx, iblk m c 2 t y = V m c main_arg1 y := by
    intro y
    show V m c main_arg1 (((cfg0.win 2).blk t).view.emb y) = _
    refine congrArg (V m c main_arg1) (funext fun a => Fin.ext ?_)
    match a with
    | ⟨0, _⟩ => show win0_2.index t (0 : Fin 2) * 16 + 1 * (y 0).val = (y 0).val; omega
    | ⟨1, _⟩ => show win0_2.index t (1 : Fin 2) * 4096 + 1 * (y 1).val = (y 1).val; omega
  have h3 : ∀ y : S4096x16.Idx, iblk m c 3 t y = V m c main_arg4 y := by
    intro y
    show V m c main_arg4 (((cfg0.win 3).blk t).view.emb y) = _
    refine congrArg (V m c main_arg4) (funext fun a => Fin.ext ?_)
    match a with
    | ⟨0, _⟩ => show win0_3.index t (0 : Fin 2) * 4096 + 1 * (y 0).val = (y 0).val; omega
    | ⟨1, _⟩ => show win0_3.index t (1 : Fin 2) * 16 + 1 * (y 1).val = (y 1).val; omega
  have h4 : ∀ y : S16x4096.Idx, iblk m c 4 t y = V m c main_arg3 y := by
    intro y
    show V m c main_arg3 (((cfg0.win 4).blk t).view.emb y) = _
    refine congrArg (V m c main_arg3) (funext fun a => Fin.ext ?_)
    match a with
    | ⟨0, _⟩ => show win0_4.index t (0 : Fin 2) * 16 + 1 * (y 0).val = (y 0).val; omega
    | ⟨1, _⟩ => show win0_4.index t (1 : Fin 2) * 4096 + 1 * (y 1).val = (y 1).val; omega
  -- column `q` of the block is column `q` of the array
  have hq : q = (((cfg0.win 5).blk t).view.emb (ix2 p q)) 1 :=
    Fin.ext (show q.val = win0_5.index t (1 : Fin 2) * 4096 + 1 * q.val by omega)
  exact kerRow_congr hx h2 h1 h4 h3 hq

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v0).slice (win0_5.rect t)).set ↔ _
  rw [View.set_slice_whole, Rect.mem_set_unit]
  exact Iff.rfl

/-- Every index of the result array is in some point's block: row `r` is in the block of point `r / 128`. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 4096 ≤ (i 1).val ∧ (i 1).val < win0_5.index t (1 : Fin 2) * 4096 + 4096
    omega

/-- The result array after the run is the specification's array over the arguments. -/
theorem final (c : Dev nD) : (dats m 0 c).arrAt 5 cfg0.N
    = kerSpec (V m c main_arg0) (V m c main_arg1) (V m c main_arg2) (V m c main_arg3) (V m c main_arg4) :=
  (dats m 0 c).arrAt_eq_of_cover 5 _ (fun t _ => flushed_eq m c t) cover

/-- The kernel's run, read: every weakly fair execution terminates with the result array at the specification's
    array over the argument arrays as launched, and the arguments unchanged. -/
theorem run : θ_run defs (onTc (τ := τ) (main (F := Ideal))) ⟨m, fun _ => 0, ρ⟩ fun r => ∀ c : Dev nD,
      r.2.mem ((c : Thread nD τ).loc main_v0)
        = kerSpec (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.LowRank.Ker

end
-- ==== Proof.RefValue.lean ====
/-
  The reference's result, read at an index, is the reference arrangement of the specification.

  The reference is seven host operations: two products of a [4096, 16] by a [16, 4096] array, their
  difference, the splat of the scale, the scaled difference, and the product of the activations with it.
  Each is read at an index by the generated one-operation lemmas; the index maps they compose are the
  plain row/column constructors.
-/
import proofs.«166343_j31602369364691_2_alg».proof.Proof.Gen.ReferenceIdeal.Read
import proofs.«166343_j31602369364691_2_alg».proof.Proof.Spec

noncomputable section

namespace Cert.LowRank.Ref

open Idealize.ShloMosaic Idealize.ShloMosaic.ValueIdx Cert.ReferenceIdeal Cert.ReferenceIdeal.Read

/-- The last product reads the activations at (row of the result, k) … -/
theorem lidx5 (i : S8192x4096.Idx) (k : Fin 4096) : lidx_main_v5 i k = ix2 (i 0) k :=
  funext fun a => Fin.ext (by match a with | ⟨0, _⟩ => rfl | ⟨1, _⟩ => rfl)
/-- … and the scaled difference at (k, column of the result). -/
theorem ridx5 (i : S8192x4096.Idx) (k : Fin 4096) : ridx_main_v5 i k = ix2 k (i 1) :=
  funext fun a => Fin.ext (by match a with | ⟨0, _⟩ => rfl | ⟨1, _⟩ => rfl)
/-- The first low-rank product reads the down-projection at (row, r) and the up-projection at (r, column). -/
theorem lidx0 (i : S4096x4096.Idx) (r : Fin 16) : lidx_main_v0 i r = ix2 (i 0) r :=
  funext fun a => Fin.ext (by match a with | ⟨0, _⟩ => rfl | ⟨1, _⟩ => rfl)
theorem ridx0 (i : S4096x4096.Idx) (r : Fin 16) : ridx_main_v0 i r = ix2 r (i 1) :=
  funext fun a => Fin.ext (by match a with | ⟨0, _⟩ => rfl | ⟨1, _⟩ => rfl)
/-- The second low-rank product likewise. -/
theorem lidx1 (i : S4096x4096.Idx) (r : Fin 16) : lidx_main_v1 i r = ix2 (i 0) r :=
  funext fun a => Fin.ext (by match a with | ⟨0, _⟩ => rfl | ⟨1, _⟩ => rfl)
theorem ridx1 (i : S4096x4096.Idx) (r : Fin 16) : ridx_main_v1 i r = ix2 r (i 1) :=
  funext fun a => Fin.ext (by match a with | ⟨0, _⟩ => rfl | ⟨1, _⟩ => rfl)

/-- Entry (k, q) of the first low-rank product: the sum over the narrow axis of the down-projection's row `k`
    times the up-projection's column `q`. -/
theorem prod0_apply (A : S16x4096.Idx → EReal) (B : S4096x16.Idx → EReal) (k q : Fin 4096) :
    val_main_v0 (F := Ideal) A B (ix2 k q) = ∑ r : Fin 16, B (ix2 k r) * A (ix2 r q) := by
  rw [val_main_v0_apply]
  exact Finset.sum_congr rfl fun r _ => congrArg₂ (· * ·) (congrArg B (lidx0 _ _)) (congrArg A (ridx0 _ _))

/-- Entry (k, q) of the second low-rank product likewise. -/
theorem prod1_apply (A0 : S16x4096.Idx → EReal) (B0 : S4096x16.Idx → EReal) (k q : Fin 4096) :
    val_main_v1 (F := Ideal) A0 B0 (ix2 k q) = ∑ r : Fin 16, B0 (ix2 k r) * A0 (ix2 r q) := by
  rw [val_main_v1_apply]
  exact Finset.sum_congr rfl fun r _ => congrArg₂ (· * ·) (congrArg B0 (lidx1 _ _)) (congrArg A0 (ridx1 _ _))

/-- Entry (k, q) of the scaled difference of the two low-rank products. -/
theorem diff_apply (A : S16x4096.Idx → EReal) (B : S4096x16.Idx → EReal) (A0 : S16x4096.Idx → EReal)
    (B0 : S4096x16.Idx → EReal) (k q : Fin 4096) :
    val_main_v4 (F := Ideal) A B A0 B0 (ix2 k q)
      = (∑ r : Fin 16, B (ix2 k r) * A (ix2 r q) - ∑ r : Fin 16, B0 (ix2 k r) * A0 (ix2 r q)) * scale := by
  show (val_main_v0 (F := Ideal) A B (ix2 k q) - val_main_v1 (F := Ideal) A0 B0 (ix2 k q)) * val_main_v3 (F := Ideal) (ix2 k q) = _
  rw [prod0_apply, prod1_apply, val_main_v3_apply, val_main_cst_apply]
  rfl

/-- The reference's last stage is the specification's reference arrangement of its five arguments
    (`x` the activations, `A`, `B` the first pair of projections, `A0`, `B0` the second). -/
theorem stage_eq (x : S8192x4096.Idx → EReal) (A : S16x4096.Idx → EReal) (B : S4096x16.Idx → EReal)
    (A0 : S16x4096.Idx → EReal) (B0 : S4096x16.Idx → EReal) :
    val_main_v5 (F := Ideal) x A B A0 B0 = refSpec x A B A0 B0 := by
  funext i
  obtain ⟨p, q, rfl⟩ : ∃ (p : Fin 8192) (q : Fin 4096), i = ix2 p q := ⟨i 0, i 1, eq_ix2 i⟩
  rw [val_main_v5_apply]
  show _ = refRow (fun k => x (ix2 p k)) A B A0 B0 q
  unfold refRow
  refine Finset.sum_congr rfl fun k _ => ?_
  exact congrArg₂ (· * ·) (congrArg x (lidx5 _ _)) ((congrArg (val_main_v4 (F := Ideal) A B A0 B0) (ridx5 _ _)).trans (diff_apply A B A0 B0 k q))

end Cert.LowRank.Ref

end
-- ==== Proof.Finite.lean ====
/-
  The precondition, read: every entry of every argument array is a real number.

  The precondition is the conjunction, over the five arrays, of "every entry's absolute value is below
  the word of +∞".  A conjunction of one-bit words is one exactly when both are; an all-axes reduction by
  "and" that is one had a one at every entry; and an extended real whose absolute value is below +∞ is
  neither infinity, hence a real number.
-/
import proofs.«166343_j31602369364691_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LowRank.Finite

open Idealize.ShloMosaic Cert.Pre_finite_inputs

variable [Cert.Pre_finite_inputs.Facts]

/-- The rank-zero shape has one index. -/
instance : Subsingleton S_.Idx := ⟨fun a b => funext fun d => d.elim0⟩

/-- The word `0x7F800000` denotes +∞. -/
theorem inf_word : Ideal.ofBits .f32 0x7F800000#32 = ⊤ := by simp [Ideal.ofBits, Ideal.ieee]

/-- An extended real whose absolute value compares below +∞ is a real number. -/
theorem real_of_abs_lt_top (x : EReal) (h : Ideal.cmp .olt (max x (-x)) ⊤ = 1#1) : ∃ v : ℝ, x = v := by
  induction x using EReal.rec with
  | bot => simp [Ideal.cmp] at h
  | top => simp [Ideal.cmp] at h
  | coe v => exact ⟨v, rfl⟩

/-- One entry of one array's test: the comparison of its absolute value with the splat of +∞ being one
    makes the entry a real number. -/
theorem real_of_test {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    ∃ v : ℝ, a i = v := by
  have hsplat : broadcastInDim s ![] hb (constant (F := Ideal) S_ .f32 0x7F800000#32) i = Ideal.ofBits .f32 0x7F800000#32 :=
    broadcastInDim_apply _ hb _ i ValueIdx.ix0 (fun d => d.elim0)
  have h' : Ideal.cmp .olt (max (a i) (-(a i))) (broadcastInDim s ![] hb (constant (F := Ideal) S_ .f32 0x7F800000#32) i) = 1#1 := h
  rw [hsplat, inf_word] at h'
  exact real_of_abs_lt_top _ h'

/-- The precondition at the extended reals makes all five argument arrays arrays of real numbers. -/
theorem real_of_pre (a0 : FVec Ideal S8192x4096 .f32) (a1 : FVec Ideal S16x4096 .f32) (a2 : FVec Ideal S4096x16 .f32)
    (a3 : FVec Ideal S16x4096 .f32) (a4 : FVec Ideal S4096x16 .f32)
    (h : fn (F := Ideal) a0 a1 a2 a3 a4 = fun _ => 1#1) :
    (∀ i, ∃ v : ℝ, a0 i = v) ∧ (∀ i, ∃ v : ℝ, a1 i = v) ∧ (∀ i, ∃ v : ℝ, a2 i = v)
      ∧ (∀ i, ∃ v : ℝ, a3 i = v) ∧ (∀ i, ∃ v : ℝ, a4 i = v) := by
  have h0 := congrFun h ValueIdx.ix0
  dsimp only [fn, fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨fun i => real_of_test _ a0 i (Host.reduce_andi_all _ _ _ _ _ h3 i),
    fun i => real_of_test _ a1 i (Host.reduce_andi_all _ _ _ _ _ h7 i),
    fun i => real_of_test _ a2 i (Host.reduce_andi_all _ _ _ _ _ h12 i),
    fun i => real_of_test _ a3 i (Host.reduce_andi_all _ _ _ _ _ h17 i),
    fun i => real_of_test _ a4 i (Host.reduce_andi_all _ _ _ _ _ h22 i)⟩

end Cert.LowRank.Finite

end
-- ==== Proof.lean ====
/-
  The certificate of a fused low-rank update kernel against its dense reference.

  Both programs take activations `x` [8192, 4096], up-projections `A`, `A0` [16, 4096] and down-projections
  `B`, `B0` [4096, 16].  The kernel, 128 rows of `x` at a time, computes

      out = ((x · B) · A − (x · B0) · A0) · 1,

  contracting the wide axis first (into [128, 16]) and the narrow axis second.  The reference forms the dense
  [4096, 4096] difference first and contracts the wide axis last:

      out = x · ((B · A − B0 · A0) · 1).

  On the extended reals every float operation is exact and a change of float format is the identity, so entry
  (p, q) of the kernel's result is  (∑ r, (∑ k, x p k · B k r) · A r q − ∑ r, (∑ k, x p k · B0 k r) · A0 r q) · 1  and
  entry (p, q) of the reference's is  ∑ k, x p k · ((∑ r, B k r · A r q − ∑ r, B0 k r · A0 r q) · 1).  These are equal
  by exchanging the two finite sums and distributing — laws that hold for real numbers but not at the
  infinities, so the proof uses the precondition: every input entry is finite, hence a real number.

  The modules: `LowRankLaw` (the law over the reals, carried to real-valued extended reals), `Spec` (the two
  arrangements as functions of the argument arrays, and their agreement), `Payload` (the kernel body's stored
  value at an entry), `Blocks` (the 64 blocks tile the result array, which is therefore the kernel
  arrangement of the whole arrays), `RefValue` (the reference's seven operations read at an index),
  `Finite` (the precondition read entry by entry).  The kernel's idealization rewrote nothing, so
  `preserves` is trivial; the three frames are the programs' runs with the result dropped.
-/
import proofs.«166343_j31602369364691_2_alg».proof.Defs
import proofs.«166343_j31602369364691_2_alg».proof.Proof.Gen.Kernel
import proofs.«166343_j31602369364691_2_alg».proof.Proof.Gen.Kernel.Skeleton
import proofs.«166343_j31602369364691_2_alg».proof.Proof.Gen.Kernel.Launch
import proofs.«166343_j31602369364691_2_alg».proof.Proof.Gen.Kernel.Points
import proofs.«166343_j31602369364691_2_alg».proof.Proof.Gen.Kernel.Frame
import proofs.«166343_j31602369364691_2_alg».proof.Proof.Gen.KernelIdeal
import proofs.«166343_j31602369364691_2_alg».proof.Proof.Gen.KernelIdeal.Skeleton
import proofs.«166343_j31602369364691_2_alg».proof.Proof.Gen.KernelIdeal.Launch
import proofs.«166343_j31602369364691_2_alg».proof.Proof.Gen.KernelIdeal.Points
import proofs.«166343_j31602369364691_2_alg».proof.Proof.Gen.KernelIdeal.Frame
import proofs.«166343_j31602369364691_2_alg».proof.Proof.Gen.ReferenceIdeal
import proofs.«166343_j31602369364691_2_alg».proof.Proof.Gen.KernelIdeal.Value
import proofs.«166343_j31602369364691_2_alg».proof.Proof.Gen.ReferenceIdeal.Run
import proofs.«166343_j31602369364691_2_alg».proof.Proof.Gen.ReferenceIdeal.Read
import proofs.«166343_j31602369364691_2_alg».proof.Proof.Gen.Pre_finite_inputs
import proofs.«166343_j31602369364691_2_alg».proof.Proof.Blocks
import proofs.«166343_j31602369364691_2_alg».proof.Proof.RefValue
import proofs.«166343_j31602369364691_2_alg».proof.Proof.Finite
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, all finite, the kernel ends at the kernel arrangement of
    the arguments and the reference at the reference arrangement of the same arguments; on arrays of real
    numbers the two arrangements are one array. -/
theorem algebraic : Cert.algebraic_KernelIdeal_ReferenceIdeal := by
  intro m ρ m' ρ' hpre hagree
  refine ⟨_, Cert.LowRank.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.LowRank.Ref.stage_eq, (hagree c).1, (hagree c).2.1,
    (hagree c).2.2.1, (hagree c).2.2.2.1, (hagree c).2.2.2.2]
  obtain ⟨r0, r1, r2, r3, r4⟩ := Cert.LowRank.Finite.real_of_pre _ _ _ _ _ (hpre c)
  exact (Cert.LowRank.kerSpec_eq_refSpec _ _ _ _ _ r0 r1 r2 r3 r4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
